-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) (main_arg2 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S512x4096 : Shape := ⟨2, ![512, 4096]⟩
abbrev S128x4096 : Shape := ⟨2, ![128, 4096]⟩

abbrev nBuf : Space → Nat
  | .hbm => 5
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096x4096, .bf16⟩
  | .hbm, ⟨4, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S512x4096, .bf16⟩
  | .local _ .vmem, ⟨5, _⟩ => ⟨S512x4096, .bf16⟩
  | .local _ .vmem, ⟨6, _⟩ => ⟨S128x4096, .f32⟩
  | .local _ .vmem, ⟨7, _⟩ => ⟨S128x4096, .f32⟩
  | .local _ .vmem, ⟨8, _⟩ => ⟨S4096x4096, .bf16⟩
  | .local _ .vmem, ⟨9, _⟩ => ⟨S128x4096, .f32⟩
  | .local _ .vmem, ⟨10, _⟩ => ⟨S128x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S128x4096_S128x4096_0_0 : ∀ a, (![0, 0] : Fin 2 → Nat) a + S128x4096.size a ≤ S128x4096.size a
  h_S128x4096 : 0 < S128x4096.numel
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  dot_S128x4096_S4096x4096_S128x4096_1_0_0_1_n_n_wf : DotDims.WF S128x4096 S4096x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .bf16 = 32 ∨ (Rect.block (s := S4096x4096) S512x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S8192x4096.size a
  hwx1_0 : ∀ i : grid1.Coords, EltTy.bits .f32 = 32 ∨ (Rect.block (s := S8192x4096) S128x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x4096.size a ≤ S4096x4096.size a
  hwx1_1 : ∀ i : grid1.Coords, EltTy.bits .bf16 = 32 ∨ (Rect.block (s := S4096x4096) S4096x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x4096.size a ≤ S8192x4096.size a
  hwx1_2 : ∀ i : grid1.Coords, EltTy.bits .f32 = 32 ∨ (Rect.block (s := S8192x4096) S128x4096.size (cc1_transform_2 i) (hinb1_2 i)).WholeWords (EltTy.packing .f32)

variable [Facts₀]

def dot_S128x4096_S4096x4096_S128x4096_1_0_0_1_n_n : DotDims S128x4096 S4096x4096 S128x4096 where
  lhsContracting := [1]
  rhsContracting := [0]
  lhsNonContracting := [0]
  rhsNonContracting := [1]
  lhsBatch := []
  rhsBatch := []
  wf := dot_S128x4096_S4096x4096_S128x4096_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The masked dense layer as plain mathematics over the extended reals, no program in sight.

  A weight matrix `w` (4096 × 4096) is multiplied ENTRY BY ENTRY with a mask `msk` of the same shape, and the
  layer's output is the matrix product of the input `x` (8192 × 4096) with that masked matrix:

      layer x w msk [r, q]  =  Σ_k  x[r, k] · (w[k, q] · msk[k, q]).

  Both programs compute exactly this sum: no factor is moved across the sum and no term is cancelled, so the two
  sides agree on every extended real, infinite entries included, and finiteness of the inputs is never used.
-/
import Idealize.ShloMosaic.PureOps.Ideal
import Idealize.ShloMosaic.Lib.ValueIdx

noncomputable section

namespace Cert.MaskedDense

open Idealize.ShloMosaic Idealize.ShloMosaic.ValueIdx

/-- The shape of the input and of the output: 8192 rows of 4096 features. -/
abbrev Rows : Shape := ⟨2, ![8192, 4096]⟩
/-- The shape of the weights and of the mask: 4096 × 4096. -/
abbrev Square : Shape := ⟨2, ![4096, 4096]⟩

/-- Entry `k` of the row of `i`: the index `(i₀, k)` of an 8192 × 4096 matrix. -/
abbrev alongRow (i : Rows.Idx) (k : Fin 4096) : Rows.Idx :=
  ix2 (n0 := 8192) (n1 := 4096) ⟨(i 0).val, (i 0).isLt⟩ k
/-- Entry `k` of the column of `i`: the index `(k, i₁)` of a 4096 × 4096 matrix. -/
abbrev alongCol (i : Rows.Idx) (k : Fin 4096) : Square.Idx :=
  ix2 (n0 := 4096) (n1 := 4096) k ⟨(i 1).val, (i 1).isLt⟩

/-- The weights with the mask applied, entry by entry. -/
def masked (w msk : Square.Idx → EReal) : Square.Idx → EReal := fun i => w i * msk i

/-- The matrix product of `x` with a square matrix `b`: entry `(r, q)` is the sum over `k` of `x[r, k] · b[k, q]`. -/
def timesSquare (x : Rows.Idx → EReal) (b : Square.Idx → EReal) : Rows.Idx → EReal :=
  fun i => ∑ k : Fin 4096, x (alongRow i k) * b (alongCol i k)

/-- The layer: the input times the masked weights. -/
def layer (x : Rows.Idx → EReal) (w msk : Square.Idx → EReal) : Rows.Idx → EReal :=
  timesSquare x (masked w msk)

end Cert.MaskedDense

end
-- ==== Proof.RefValue.lean ====
/-
  The reference computes the layer.

  Its two host operations are the entrywise product of the weights with the mask and one matrix product contracting
  the input's feature axis against the product's row axis.  Read at an index `(r, q)` the second is the sum over
  `k` of `x[r, k]` times the first at `(k, q)`, which is the specification's sum term by term.
-/
import proofs.«113194_j22368189678017_2_alg».proof.Proof.Gen.ReferenceIdeal.Read
import proofs.«113194_j22368189678017_2_alg».proof.Proof.Spec

noncomputable section

namespace Cert.ReferenceIdeal.RefValue

open Cert.ReferenceIdeal Cert.ReferenceIdeal.Read Cert.MaskedDense
open Idealize.ShloMosaic Idealize.ShloMosaic.TcCoe

/-- The left operand's index in term `k` of the product at `i` is entry `k` of `i`'s row. -/
theorem left_index (i : S8192x4096.Idx) (k : Fin 4096) : lidx_main_v1 i k = alongRow i k :=
  funext fun a => by match a with | ⟨0, _⟩ => rfl | ⟨1, _⟩ => rfl

/-- The right operand's index in term `k` of the product at `i` is entry `k` of `i`'s column. -/
theorem right_index (i : S8192x4096.Idx) (k : Fin 4096) : ridx_main_v1 i k = alongCol i k :=
  funext fun a => by match a with | ⟨0, _⟩ => rfl | ⟨1, _⟩ => rfl

/-- The reference's result, as a function of the three argument arrays, is the layer. -/
theorem reference_eq (x : (⟨S8192x4096, .f32⟩ : BufTy).Contents (Elt Ideal))
    (w msk : (⟨S4096x4096, .f32⟩ : BufTy).Contents (Elt Ideal)) :
    val_main_v1 (F := Ideal) x w msk = layer x w msk := by
  funext i
  rw [val_main_v1_apply]
  unfold layer timesSquare masked
  refine Finset.sum_congr rfl fun k _ => ?_
  rw [left_index, right_index, val_main_v0_apply]
  rfl

end Cert.ReferenceIdeal.RefValue

end
-- ==== Proof.MaskRegion.lean ====
/-
  The first kernel region: the masked weights.

  Its grid has eight points; point `t` loads rows `512·t … 512·t + 511` (all 4096 columns) of the weights and of
  the mask, multiplies them entry by entry, and writes the product back to the same rows of the result array.  The
  narrowing of the product to the storage format is the identity on extended reals.  The eight row bands tile the
  array, so after the region the array holds `w[k, q] · msk[k, q]` at every index.
-/
import proofs.«113194_j22368189678017_2_alg».proof.Proof.Gen.KernelIdeal.Frame
import proofs.«113194_j22368189678017_2_alg».proof.Proof.Spec
import Idealize.ShloMosaic.Lib.Pipeline.Value
import Idealize.ShloMosaic.Lib.ValueIdx

set_option maxRecDepth 16384

noncomputable section

namespace Cert.KernelIdeal.MaskRegion

open Cert.KernelIdeal Cert.KernelIdeal.Gen Cert.MaskedDense
open Idealize.ShloMosaic Idealize.ShloMosaic.TcCoe Idealize.SL.Sem Idealize.ShloMosaic.Pipeline

variable (V : (c : Dev nD) → (b : Ref sig .tc) → Buf (Elt Ideal) ((c : Thread nD τ).loc b))

/-- The body's one load and one store start at the origin of their buffers. -/
theorem origin : (![0, 0] : Fin 2 → Nat) = fun _ => 0 := funext fun a => by fin_cases a <;> rfl

/-- What the body stores, entry by entry: the product of the two loaded bands. -/
theorem payload_eq (x0 x1 : Vec Ideal S512x4096 .f32) :
    k0_pay1 (F := Ideal) x0 x1 = fun j => x0 j * x1 j := rfl

/-- A product of two entries depends only on where the entries are read. -/
theorem entry_mul (A B : S4096x4096.Idx → EReal) {i i' k k' : S4096x4096.Idx} (h0 : i = i') (h1 : k = k') :
    A i * B k = A i' * B k' := by rw [h0, h1]

/-- The three windows move together: at point `t` each is on row band `t`, column band `0`. -/
theorem bands : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is band `t` of the masked weights, read off the arrays as the region finds them. -/
theorem flushed_eq (c : Dev nD) (t : Fin cfg0.N) :
    (dat0 V c).flushed 2 t
      = ((cfg0.win 2).blk t).view.read (Elt Ideal) (masked (V c main_arg1) (V c main_arg2)) := by
  show (cfg0.win 2).cut (grid0.coords t) ((dat0 V c).after 2 t) = _
  rw [after0_2]
  unfold out0_2
  rw [View.canon_unit_zero origin]
  simp only [View.ld_unit_zero (S := S512x4096) origin]
  rw [payload_eq]
  obtain ⟨e0, e1, e2, e3, e4, e5⟩ := bands t
  funext j
  have h0 : ((cfg0.win 0).blk t).view.emb j = ((cfg0.win 2).blk t).view.emb j := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 4096 + 1 * (j 1).val = win0_2.index t (1 : Fin 2) * 4096 + 1 * (j 1).val; omega
  have h1 : ((cfg0.win 1).blk t).view.emb j = ((cfg0.win 2).blk t).view.emb j := by
    funext a; apply Fin.ext
    match a with
    | ⟨0, _⟩ => show win0_1.index t (0 : Fin 2) * 512 + 1 * (j 0).val = win0_2.index t (0 : Fin 2) * 512 + 1 * (j 0).val; omega
    | ⟨1, _⟩ => show win0_1.index t (1 : Fin 2) * 4096 + 1 * (j 1).val = win0_2.index t (1 : Fin 2) * 4096 + 1 * (j 1).val; omega
  exact entry_mul (V c main_arg1) (V c main_arg2) h0 h1

/-- An index of the array lies in point `t`'s band iff each coordinate lies in the band's range on its axis. -/
theorem mem_band (t : Fin cfg0.N) (i : S4096x4096.Idx) :
    i ∈ ((cfg0.win 2).blk t).view.set
      ↔ ∀ a : Fin 2, win0_2.index t a * S512x4096.size a ≤ (i a).val
          ∧ (i a).val < win0_2.index t a * S512x4096.size a + S512x4096.size a := by
  show i ∈ ((View.whole main_v0).slice (win0_2.rect t)).set ↔ _
  rw [View.set_slice_whole, Rect.mem_set_unit]
  exact Iff.rfl

/-- Every index of the array lies in some point's band: row `r` is in band `r / 512`. -/
theorem covered (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  refine ⟨⟨(i 0).val / 512, by show (i 0).val / 512 < 8; omega⟩, flush0_2 _, ?_⟩
  rw [mem_band]
  obtain ⟨-, -, -, -, e4, e5⟩ := bands ⟨(i 0).val / 512, by show (i 0).val / 512 < 8; omega⟩
  intro a
  match a with
  | ⟨0, _⟩ =>
    show win0_2.index _ (0 : Fin 2) * 512 ≤ (i 0).val ∧ (i 0).val < win0_2.index _ (0 : Fin 2) * 512 + 512
    rw [e4]; show (i 0).val / 512 * 512 ≤ (i 0).val ∧ (i 0).val < (i 0).val / 512 * 512 + 512; omega
  | ⟨1, _⟩ =>
    show win0_2.index _ (1 : Fin 2) * 4096 ≤ (i 1).val ∧ (i 1).val < win0_2.index _ (1 : Fin 2) * 4096 + 4096
    rw [e5]; omega

/-- After the region the result array holds the masked weights of the two operand arrays as the region found them. -/
theorem final (c : Dev nD) :
    (dat0 V c).arrAt 2 cfg0.N = masked (V c main_arg1) (V c main_arg2) :=
  (dat0 V c).arrAt_eq_of_cover 2 (masked (V c main_arg1) (V c main_arg2)) (fun t _ => flushed_eq V c t) covered

end Cert.KernelIdeal.MaskRegion

end
-- ==== Proof.MatmulRegion.lean ====
/-
  The second kernel region: the input times a square matrix.

  Its grid has 64 points; point `t` loads rows `128·t … 128·t + 127` of the input (all 4096 features) and the WHOLE
  square matrix the first region left, and stores, for each loaded row `r` and each column `q`, the sum over `k` of
  `x[r, k] · b[k, q]` into the same rows of the result.  The matrix product starts from a zero accumulator, so it is
  just that sum; the narrowing of the input rows and the reshaping of the square matrix to its own shape are
  identities on extended reals.  The 64 row bands tile the result, so after the region it holds the product at every
  index.
-/
import proofs.«113194_j22368189678017_2_alg».proof.Proof.Gen.KernelIdeal.Frame
import proofs.«113194_j22368189678017_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.MatmulRegion

open Cert.KernelIdeal Cert.KernelIdeal.Gen Cert.MaskedDense
open Idealize.ShloMosaic Idealize.ShloMosaic.TcCoe Idealize.SL.Sem Idealize.ShloMosaic.Pipeline

variable (V : (c : Dev nD) → (b : Ref sig .tc) → Buf (Elt Ideal) ((c : Thread nD τ).loc b))

/-- The body's loads and its store start at the origin of their buffers. -/
theorem origin : (![0, 0] : Fin 2 → Nat) = fun _ => 0 := funext fun a => by fin_cases a <;> rfl

/-! ## The body's matrix product, read at an index -/

/-- Entry `k` of the row of `j` in a band of 128 rows. -/
abbrev bandRow (j : S128x4096.Idx) (k : Fin 4096) : S128x4096.Idx :=
  ValueIdx.ix2 (n0 := 128) (n1 := 4096) ⟨(j 0).val, (j 0).isLt⟩ k
/-- Entry `k` of the column of `j` in the square matrix. -/
abbrev bandCol (j : S128x4096.Idx) (k : Fin 4096) : S4096x4096.Idx :=
  ValueIdx.ix2 (n0 := 4096) (n1 := 4096) k ⟨(j 1).val, (j 1).isLt⟩

/-- The product's left operand is read at the output's row … -/
theorem lhs_row (j : S128x4096.Idx) (q : dot_S128x4096_S4096x4096_S128x4096_1_0_0_1_n_n.contr.Idx) :
    (dot_S128x4096_S4096x4096_S128x4096_1_0_0_1_n_n.lhsIdx j q 0).val = (j 0).val := by
  unfold DotDims.lhsIdx
  rw [dif_neg (show ¬(0 : Fin S128x4096.rank) ∈ dot_S128x4096_S4096x4096_S128x4096_1_0_0_1_n_n.lhsBatch by decide),
    dif_pos (show (0 : Fin S128x4096.rank) ∈ dot_S128x4096_S4096x4096_S128x4096_1_0_0_1_n_n.lhsNonContracting by decide)]
  rfl
/-- … and at the contracted coordinate; -/
theorem lhs_contr (j : S128x4096.Idx) (q : dot_S128x4096_S4096x4096_S128x4096_1_0_0_1_n_n.contr.Idx) :
    (dot_S128x4096_S4096x4096_S128x4096_1_0_0_1_n_n.lhsIdx j q 1).val = (q ⟨0, by decide⟩).val :=
  dot_S128x4096_S4096x4096_S128x4096_1_0_0_1_n_n.lhsIdx_val_of_single rfl j q
/-- the right operand at the contracted coordinate … -/
theorem rhs_contr (j : S128x4096.Idx) (q : dot_S128x4096_S4096x4096_S128x4096_1_0_0_1_n_n.contr.Idx) :
    (dot_S128x4096_S4096x4096_S128x4096_1_0_0_1_n_n.rhsIdx j q 0).val = (q ⟨0, by decide⟩).val :=
  dot_S128x4096_S4096x4096_S128x4096_1_0_0_1_n_n.rhsIdx_val_of_single rfl j q
/-- … and at the output's column. -/
theorem rhs_col (j : S128x4096.Idx) (q : dot_S128x4096_S4096x4096_S128x4096_1_0_0_1_n_n.contr.Idx) :
    (dot_S128x4096_S4096x4096_S128x4096_1_0_0_1_n_n.rhsIdx j q 1).val = (j 1).val := by
  unfold DotDims.rhsIdx
  rw [dif_neg (show ¬(1 : Fin S4096x4096.rank) ∈ dot_S128x4096_S4096x4096_S128x4096_1_0_0_1_n_n.rhsBatch by decide),
    dif_pos (show (1 : Fin S4096x4096.rank) ∈ dot_S128x4096_S4096x4096_S128x4096_1_0_0_1_n_n.rhsNonContracting by decide)]
  rfl

/-- The matrix product of a band `a` with a square matrix `b` into a zero accumulator, at `j`: the sum over `k` of
    `a[j₀, k] · b[k, j₁]`. -/
theorem product_apply (a : FVec Ideal S128x4096 .bf16) (b : FVec Ideal S4096x4096 .bf16) (j : S128x4096.Idx) :
    matmul (F := Ideal) dot_S128x4096_S4096x4096_S128x4096_1_0_0_1_n_n none a b (constant (F := Ideal) S128x4096 .f32 0x00000000#32) j
      = ∑ k : Fin 4096, a (bandRow j k) * b (bandCol j k) := by
  simp only [matmul]
  rw [Ideal.matmul_constant_zero_apply,
    ← Equiv.sum_comp (ValueIdx.contrEquiv1 dot_S128x4096_S4096x4096_S128x4096_1_0_0_1_n_n 4096 rfl rfl).symm]
  refine Finset.sum_congr rfl fun k _ => ?_
  have hk := ValueIdx.contrEquiv1_symm_val dot_S128x4096_S4096x4096_S128x4096_1_0_0_1_n_n 4096 rfl rfl k
  have el : dot_S128x4096_S4096x4096_S128x4096_1_0_0_1_n_n.lhsIdx j
      ((ValueIdx.contrEquiv1 dot_S128x4096_S4096x4096_S128x4096_1_0_0_1_n_n 4096 rfl rfl).symm k) = bandRow j k :=
    funext fun d => Fin.ext (by
      match d with
      | ⟨0, _⟩ => exact lhs_row _ _
      | ⟨1, _⟩ => exact (lhs_contr _ _).trans hk)
  have er : dot_S128x4096_S4096x4096_S128x4096_1_0_0_1_n_n.rhsIdx j
      ((ValueIdx.contrEquiv1 dot_S128x4096_S4096x4096_S128x4096_1_0_0_1_n_n 4096 rfl rfl).symm k) = bandCol j k :=
    funext fun d => Fin.ext (by
      match d with
      | ⟨0, _⟩ => exact (rhs_contr _ _).trans hk
      | ⟨1, _⟩ => exact rhs_col _ _)
  rw [el, er]

/-- What the body stores, at `j`: the sum over `k` of the loaded band at `(j₀, k)` times the loaded square matrix at
    `(k, j₁)`. -/
theorem payload_apply (x0 : Vec Ideal S128x4096 .f32) (x1 : Vec Ideal S4096x4096 .bf16) (j : S128x4096.Idx) :
    k1_pay1 (F := Ideal) x0 x1 j = ∑ k : Fin 4096, (x0 (bandRow j k) : EReal) * (x1 (bandCol j k) : EReal) := by
  show matmul (F := Ideal) dot_S128x4096_S4096x4096_S128x4096_1_0_0_1_n_n none (truncf .bf16 x0 bitsLt_bf16_f32)
      (shapeCast S4096x4096 x1 shapeCasts_S4096x4096_S4096x4096) (constant (F := Ideal) S128x4096 .f32 0x00000000#32) j = _
  rw [product_apply, shapeCast_self]
  rfl

/-! ## From the bands to the array -/

/-- A sum of products of entries depends only on where the entries are read. -/
theorem sum_entry_mul (A : S8192x4096.Idx → EReal) (B : S4096x4096.Idx → EReal)
    (f f' : Fin 4096 → S8192x4096.Idx) (g g' : Fin 4096 → S4096x4096.Idx)
    (hf : ∀ k, f k = f' k) (hg : ∀ k, g k = g' k) :
    ∑ k : Fin 4096, A (f k) * B (g k) = ∑ k : Fin 4096, A (f' k) * B (g' k) :=
  Finset.sum_congr rfl fun k _ => by rw [hf k, hg k]

/-- At point `t` the input's window and the result's are on row band `t`; the square matrix's window is always the whole
    matrix. -/
theorem bands : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is band `t` of the product of the two operand arrays as the region finds them. -/
theorem flushed_eq (c : Dev nD) (t : Fin cfg1.N) :
    (dat1 V c).flushed 2 t
      = ((cfg1.win 2).blk t).view.read (Elt Ideal) (timesSquare (V c main_arg0) (V c main_v0)) := by
  show (cfg1.win 2).cut (grid1.coords t) ((dat1 V c).after 2 t) = _
  rw [after1_2]
  unfold out1_2
  rw [View.canon_unit_zero origin]
  simp only [View.ld_unit_zero (S := S128x4096) origin, View.ld_unit_zero (S := S4096x4096) origin]
  obtain ⟨e0, e1, e2, e3, e4, e5⟩ := bands t
  funext j
  refine (payload_apply _ _ j).trans ?_
  have h0 : ∀ k : Fin 4096,
      ((cfg1.win 0).blk t).view.emb (bandRow j k) = alongRow (((cfg1.win 2).blk t).view.emb j) k := fun k => by
    funext a; apply Fin.ext
    match a with
    | ⟨0, _⟩ => show win1_0.index t (0 : Fin 2) * 128 + 1 * (j 0).val = win1_2.index t (0 : Fin 2) * 128 + 1 * (j 0).val; omega
    | ⟨1, _⟩ => show win1_0.index t (1 : Fin 2) * 4096 + 1 * k.val = k.val; omega
  have h1 : ∀ k : Fin 4096,
      ((cfg1.win 1).blk t).view.emb (bandCol j k) = alongCol (((cfg1.win 2).blk t).view.emb j) k := fun k => by
    funext a; apply Fin.ext
    match a with
    | ⟨0, _⟩ => show win1_1.index t (0 : Fin 2) * 4096 + 1 * k.val = k.val; omega
    | ⟨1, _⟩ => show win1_1.index t (1 : Fin 2) * 4096 + 1 * (j 1).val = win1_2.index t (1 : Fin 2) * 4096 + 1 * (j 1).val; omega
  exact sum_entry_mul (V c main_arg0) (V c main_v0)
    (fun k => ((cfg1.win 0).blk t).view.emb (bandRow j k)) (fun k => alongRow (((cfg1.win 2).blk t).view.emb j) k)
    (fun k => ((cfg1.win 1).blk t).view.emb (bandCol j k)) (fun k => alongCol (((cfg1.win 2).blk t).view.emb j) k) h0 h1

/-- An index of the result lies in point `t`'s band iff each coordinate lies in the band's range on its axis. -/
theorem mem_band (t : Fin cfg1.N) (i : S8192x4096.Idx) :
    i ∈ ((cfg1.win 2).blk t).view.set
      ↔ ∀ a : Fin 2, win1_2.index t a * S128x4096.size a ≤ (i a).val
          ∧ (i a).val < win1_2.index t a * S128x4096.size a + S128x4096.size a := by
  show i ∈ ((View.whole main_v1).slice (win1_2.rect t)).set ↔ _
  rw [View.set_slice_whole, Rect.mem_set_unit]
  exact Iff.rfl

/-- Every index of the result lies in some point's band: row `r` is in band `r / 128`. -/
theorem covered (i : S8192x4096.Idx) :
    ∃ t : Fin cfg1.N, (cfg1.win 2).flush t = true ∧ i ∈ ((cfg1.win 2).blk t).view.set := by
  have hi0 : (i 0).val < 8192 := (i 0).isLt
  have hi1 : (i 1).val < 4096 := (i 1).isLt
  refine ⟨⟨(i 0).val / 128, by show (i 0).val / 128 < 64; omega⟩, flush1_2 _, ?_⟩
  rw [mem_band]
  obtain ⟨-, -, -, -, e4, e5⟩ := bands ⟨(i 0).val / 128, by show (i 0).val / 128 < 64; omega⟩
  intro a
  match a with
  | ⟨0, _⟩ =>
    show win1_2.index _ (0 : Fin 2) * 128 ≤ (i 0).val ∧ (i 0).val < win1_2.index _ (0 : Fin 2) * 128 + 128
    rw [e4]; show (i 0).val / 128 * 128 ≤ (i 0).val ∧ (i 0).val < (i 0).val / 128 * 128 + 128; omega
  | ⟨1, _⟩ =>
    show win1_2.index _ (1 : Fin 2) * 4096 ≤ (i 1).val ∧ (i 1).val < win1_2.index _ (1 : Fin 2) * 4096 + 4096
    rw [e5]; omega

/-- After the region the result array holds the product of the input array with the square array, both as the region
    found them. -/
theorem final (c : Dev nD) :
    (dat1 V c).arrAt 2 cfg1.N = timesSquare (V c main_arg0) (V c main_v0) :=
  (dat1 V c).arrAt_eq_of_cover 2 (timesSquare (V c main_arg0) (V c main_v0)) (fun t _ => flushed_eq V c t) covered

end Cert.KernelIdeal.MatmulRegion

end
-- ==== Proof.KernelRun.lean ====
/-
  The whole kernel program, with its result named.

  The program is two kernel regions one after the other and nothing else.  Following the buffer contents through the
  two boundaries: the first region leaves the masked weights in the intermediate array and touches no argument; the
  second reads the input and that intermediate array and leaves their matrix product in the result array.  So every
  weakly fair execution terminates with the result array at `layer x w msk` of the three argument arrays as launched,
  and the arguments unchanged.
-/
import proofs.«113194_j22368189678017_2_alg».proof.Proof.Gen.KernelIdeal.Frame
import proofs.«113194_j22368189678017_2_alg».proof.Proof.MaskRegion
import proofs.«113194_j22368189678017_2_alg».proof.Proof.MatmulRegion

set_option maxRecDepth 16384

noncomputable section

namespace Cert.KernelIdeal.Whole

open Cert.KernelIdeal Cert.KernelIdeal.Gen Cert.MaskedDense
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section AnyFloats

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the contents
    the last boundary assigns it and every argument array as launched: the two regions run as segments from the
    launch, and the last thread state is read against the final memory at the result's buffer as well as at the
    arguments'. -/
theorem run_named : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end AnyFloats

/-! ## At the extended reals -/

variable (m : (ℓ : Loc nD τ sig) → Buf (Elt Ideal) ℓ) (ρ : Dev nD → PrngReg)

/-- The second region finds the input array as launched: the first region does not touch it. -/
theorem input_kept (c : Dev nD) : V1 m ρ c main_arg0 = m ((c.tc : Thread nD τ).loc main_arg0) :=
  W1_of_ne m ρ c main_arg0 (by decide)

/-- The second region finds the intermediate array at the masked weights of the launch arrays. -/
theorem intermediate_eq (c : Dev nD) :
    V1 m ρ c main_v0 = masked (m ((c.tc : Thread nD τ).loc main_arg1)) (m ((c.tc : Thread nD τ).loc main_arg2)) :=
  (W1_arr m ρ c 2).trans (MaskRegion.final (V0 m ρ) c)

/-- The last boundary assigns the result array the layer of the three launch arrays. -/
theorem result_eq (c : Dev nD) :
    W2 m ρ c (Proc.devRef .tc main_v1)
      = layer (m ((c.tc : Thread nD τ).loc main_arg0)) (m ((c.tc : Thread nD τ).loc main_arg1)) (m ((c.tc : Thread nD τ).loc main_arg2)) := by
  refine (W2_arr m ρ c 2).trans ?_
  rw [MatmulRegion.final (V1 m ρ) c, input_kept m ρ c, intermediate_eq m ρ c]
  rfl

/-- THE KERNEL'S RUN at the extended reals: the result array ends at the layer of the arguments, the arguments end
    as launched. -/
theorem run : θ_run defs (onTc (τ := τ) (main (F := Ideal))) ⟨m, fun _ => 0, ρ⟩ (fun r => ∀ c : Dev nD,
      r.2.mem ((c.tc : Thread nD τ).loc main_v1)
        = layer (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (run_named m ρ)

end Cert.KernelIdeal.Whole

end
-- ==== Proof.lean ====
/-
  A masked dense layer, `out = x · (w ⊙ msk)`: the kernel against its plain reference, over the extended reals.

  The kernel works in two regions.  The first multiplies the weights `w` with the mask `msk` entry by entry, one band
  of 512 rows at a time, into an intermediate array; the second multiplies the input `x`, one band of 128 rows at a
  time, with that whole intermediate array.  The reference multiplies `w` with `msk` entry by entry and takes one
  matrix product of `x` with the result.  At every index `(r, q)` both are the same sum,

      Σ_k  x[r, k] · (w[k, q] · msk[k, q]),

  written in the same order with the same grouping, so they agree on all extended reals and the finiteness of the
  inputs is never called on.  The changes of storage format on the kernel's side are identities on extended reals,
  and the kernel's matrix product starts from a zero accumulator.

  The kernel's idealization rewrites no operation, so that it is the kernel's sanctioned idealization holds trivially.
  Each program terminates without fault and leaves its argument arrays as they were.
-/
import proofs.«113194_j22368189678017_2_alg».proof.Defs
import proofs.«113194_j22368189678017_2_alg».proof.Proof.Gen.Kernel
import proofs.«113194_j22368189678017_2_alg».proof.Proof.Gen.Kernel.Skeleton
import proofs.«113194_j22368189678017_2_alg».proof.Proof.Gen.Kernel.Launch
import proofs.«113194_j22368189678017_2_alg».proof.Proof.Gen.Kernel.Points
import proofs.«113194_j22368189678017_2_alg».proof.Proof.Gen.Kernel.Frame
import proofs.«113194_j22368189678017_2_alg».proof.Proof.Gen.KernelIdeal
import proofs.«113194_j22368189678017_2_alg».proof.Proof.Gen.KernelIdeal.Skeleton
import proofs.«113194_j22368189678017_2_alg».proof.Proof.Gen.KernelIdeal.Launch
import proofs.«113194_j22368189678017_2_alg».proof.Proof.Gen.KernelIdeal.Points
import proofs.«113194_j22368189678017_2_alg».proof.Proof.Gen.KernelIdeal.Frame
import proofs.«113194_j22368189678017_2_alg».proof.Proof.Gen.ReferenceIdeal
import proofs.«113194_j22368189678017_2_alg».proof.Proof.Gen.ReferenceIdeal.Run
import proofs.«113194_j22368189678017_2_alg».proof.Proof.Gen.ReferenceIdeal.Read
import proofs.«113194_j22368189678017_2_alg».proof.Proof.Gen.Pre_finite_inputs
import proofs.«113194_j22368189678017_2_alg».proof.Proof.Spec
import proofs.«113194_j22368189678017_2_alg».proof.Proof.RefValue
import proofs.«113194_j22368189678017_2_alg».proof.Proof.KernelRun
import Idealize.ShloMosaic.Adequacy
import Idealize.ShloMosaic.Init

noncomputable section

namespace Cert.Proof

open Idealize.ShloMosaic Idealize.SL.Sem Cert.MaskedDense

/-- The kernel as printed terminates without fault and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the three arguments, both programs end with the result array at the layer of the
    arguments: the kernel by its two regions, the reference by its two host operations read at an index. -/
theorem algebraic : Cert.algebraic_KernelIdeal_ReferenceIdeal := by
  intro m ρ m' ρ' _ hagree
  refine ⟨fun c => layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.reference_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
